-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S64x128 .f32) (main_arg3 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S64x128, .f32⟩
  | .local _ .vmem, ⟨4, _⟩ => ⟨S1x64, .f32⟩
  | .local _ .vmem, ⟨5, _⟩ => ⟨S10000x64, .f32⟩
  | .local _ .vmem, ⟨6, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v11 : BitVec 32 := Scalar.muli arg0 c400_i32
  let v12 : Index := Scalar.indexCast v11
  let c0_6 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  h_S400x64 : 0 < S400x64.numel
  dot_S10000x128_S64x128_S10000x64_1_1_0_0_n_n_wf : DotDims.WF S10000x128 S64x128 S10000x64 [1] [1] [0] [0] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ a, (k0_off1 i) a + S400x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S10000x64.size a
  hwx0_4 : ∀ i : grid0.Coords, EltTy.bits .f32 = 32 ∨ (Rect.block (s := S10000x64) S10000x64.size (cc0_transform_4 i) (hinb0_4 i)).WholeWords (EltTy.packing .f32)

variable [Facts₀]

def dot_S10000x128_S64x128_S10000x64_1_1_0_0_n_n : DotDims S10000x128 S64x128 S10000x64 where
  lhsContracting := [1]
  rhsContracting := [1]
  lhsNonContracting := [0]
  rhsNonContracting := [0]
  lhsBatch := []
  rhsBatch := []
  wf := dot_S10000x128_S64x128_S10000x64_1_1_0_0_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10000x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S128x64 : Shape := ⟨2, ![128, 64]⟩
abbrev S10000x64 : Shape := ⟨2, ![10000, 64]⟩
abbrev S1x64 : Shape := ⟨2, ![1, 64]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S64, .f32⟩
  | .hbm, ⟨4, _⟩ => ⟨S10000x128, .f32⟩
  | .hbm, ⟨5, _⟩ => ⟨S128x64, .f32⟩
  | .hbm, ⟨6, _⟩ => ⟨S10000x64, .f32⟩
  | .hbm, ⟨7, _⟩ => ⟨S1x64, .f32⟩
  | .hbm, ⟨8, _⟩ => ⟨S10000x64, .f32⟩
  | .hbm, ⟨9, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.BodyBits.lean ====
/-
  The frame of the kernel as printed, at the word level: one region of 25 grid points. At every point the body multiplies its 400-row
  block of the adjacency matrix by the projection `features · weightsᵀ` held in a scratch buffer, adds the bias row,
  and stores the 400 result rows into the output's resident buffer at rows [400 · t, 400 · t + 400); the first
  point also computes the projection and stores it over the whole scratch. The output's buffer is written back
  once, after the last point.

  What each point does to each buffer is stated as a relation between the contents found and the contents left:
  an input is left as found; the output is left as found except for the point's rows. The scratch's contents are
  carried by the region's invariant: anything before the first point, the projection afterwards. From the run
  follow termination without a fault and that the four argument arrays end as launched.
-/
import proofs.«123032_g65816078844241_cont_9to1c4b_298_21_alg».proof.Proof.Gen.Kernel.Frame
import proofs.«123032_g65816078844241_cont_9to1c4b_298_21_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The body's branch: taken at the first grid point only -/

/-- The condition of the body's one conditional, as a proposition about the grid coordinates: the coordinate is zero. -/
abbrev cond0 (i : grid0.Coords) : Prop :=
  Scalar.cmpi .ne (Scalar.extui (Scalar.cmpi .eq (BitVec.ofNat 32 (i 0).val) 0#32)) 0#32 = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-! ## Whole-buffer loads and stores -/

/-- The offsets of a rectangle that starts at the origin of a matrix. -/
theorem origin2 : (![0, 0] : Fin 2 → ℕ) = fun _ => 0 := by
  funext a; match a with | ⟨0, _⟩ => rfl | ⟨1, _⟩ => rfl

/-- Loading a whole buffer through the rectangle that is all of it reads the buffer's contents. -/
theorem load_whole {S : Shape} {e : EltTy} (mm : Memref sig .tc .vmem S e) (h : mm.IsWhole) {off : Fin S.rank → ℕ}
    (hz : off = fun _ => 0) (inb : ∀ a, off a + S.size a ≤ S.size a) (x : S.Idx → Elt F e) :
    View.readAt (Elt F) mm.view (Rect.unit (s := S) off S.size inb).toLoadRect (h.unread x) = x :=
  (View.readAt_eq_ld mm.view (h.unread x) (Rect.unit (s := S) off S.size inb)).trans
    ((congrArg (fun f => View.ld f (Rect.unit (s := S) off S.size inb)) (h.read_unread x)).trans (View.ld_unit_zero hz inb x))

/-- A buffer stored whole reads the payload, whatever it held. -/
theorem read_store_whole {S : Shape} {e : EltTy} (mm : Memref sig .tc .vmem S e) (f : mm.view.ty.Contents (Elt F))
    {off : Fin S.rank → ℕ} (hz : off = fun _ => 0) (inb : ∀ a, off a + S.size a ≤ S.size a) (w : S.Idx → Elt F e) :
    mm.view.read (Elt F) (mm.view.writes (Elt F) f [⟨Rect.unit (s := S) off S.size inb, w⟩]) = w :=
  (View.read_writes_eq_canon mm.view f _ (fun y => ⟨_, List.mem_singleton.mpr rfl,
    (View.mem_set_unit_zero hz inb y)⟩)).trans (View.canon_unit_zero hz inb w)

/-! ## What one point leaves in the output's buffer -/

/-- The output's buffer read after the rows of one point, the payload `p`, are stored over contents `y`: rows
    `[400 · i, 400 · i + 400)` are `p`, every other row is `y`'s. -/
def stored (arg5 : Memref sig .tc .vmem S10000x64 .f32) (harg5 : arg5.IsWhole) (i : grid0.Coords)
    (y : Vec F S10000x64 .f32) (p : Vec F S400x64 .f32) : Vec F S10000x64 .f32 :=
  arg5.view.read (Elt F) (arg5.view.writes (Elt F) (harg5.unread y)
    [⟨Rect.unit (s := S10000x64) (k0_off1 i) S400x64.size (Facts₀.k0_off1_inb i), p⟩])

/-! ## The body run on any whole buffers, in its two cases -/

set_option maxHeartbeats 1000000 in
/-- At a point other than the first the body leaves the projection in the scratch as it found it (`xs`), and stores
    into the output's buffer the rows `adjacency block · xs + bias row`; every input buffer is left as found. -/
theorem run_later (c : Dev nD) (i : grid0.Coords)
    (arg1 : Memref sig .tc .vmem S400x10000 .f32) (harg1 : arg1.IsWhole) (arg2 : Memref sig .tc .vmem S10000x128 .f32) (harg2 : arg2.IsWhole)
    (arg3 : Memref sig .tc .vmem S64x128 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S10000x64 .bf16) (harg6 : arg6.IsWhole)
    (hc0 : ¬cond0 i)
    (x0 : Vec F S400x10000 .f32) (x1 : Vec F S10000x128 .f32) (x2 : Vec F S64x128 .f32) (x3 : Vec F S1x64 .f32)
    (y4 : Vec F S10000x64 .f32) (xs : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored arg5 harg5 i y4 (k0_pay2 x0 xs x3))
            ∗ owns (c : Thread nD τ) arg6 fullShare xs) -∗ K ⟨⟩))
      ⊢ wp frame (wpE (defs₀ (F := F)) Variants.none c none) E (cc0__sgc_kernel i arg1 harg1 arg2 harg2 arg3 harg3 arg4 harg4 arg5 harg5 arg6 harg6) K := by
  simp only [cc0__sgc_kernel_eq_skeleton]; unfold cc0__sgc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0)
  sl_step
  rw [load_whole arg1 harg1 origin2, load_whole arg6 harg6 origin2, load_whole arg4 harg4 origin2]
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; rfl
                  iexact H4
  iexists _; isplitr; · ipureintro; exact hfs
  iexact HS

set_option maxHeartbeats 1000000 in
/-- At the first point the body first stores the projection `features · weightsᵀ` over the whole scratch, whatever it
    held, and then does what it does at every point with that projection. -/
theorem run_first (c : Dev nD) (i : grid0.Coords)
    (arg1 : Memref sig .tc .vmem S400x10000 .f32) (harg1 : arg1.IsWhole) (arg2 : Memref sig .tc .vmem S10000x128 .f32) (harg2 : arg2.IsWhole)
    (arg3 : Memref sig .tc .vmem S64x128 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S10000x64 .bf16) (harg6 : arg6.IsWhole)
    (hc0 : cond0 i)
    (x0 : Vec F S400x10000 .f32) (x1 : Vec F S10000x128 .f32) (x2 : Vec F S64x128 .f32) (x3 : Vec F S1x64 .f32)
    (y4 : Vec F S10000x64 .f32) (xs : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored arg5 harg5 i y4 (k0_pay2 x0 (k0_pay1 x1 x2) x3))
            ∗ owns (c : Thread nD τ) arg6 fullShare (k0_pay1 x1 x2)) -∗ K ⟨⟩))
      ⊢ wp frame (wpE (defs₀ (F := F)) Variants.none c none) E (cc0__sgc_kernel i arg1 harg1 arg2 harg2 arg3 harg3 arg4 harg4 arg5 harg5 arg6 harg6) K := by
  simp only [cc0__sgc_kernel_eq_skeleton]; unfold cc0__sgc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0)
  sl_step
  sl_unfold_run_names
  rw [View.readCov_unit_zero arg6.view origin2, load_whole arg1 harg1 origin2, load_whole arg2 harg2 origin2,
    load_whole arg3 harg3 origin2, load_whole arg4 harg4 origin2]
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; rfl
                  iexact H4
  iexists _; isplitr
  swap; · iexact HS
  ipureintro; exact read_store_whole arg6 _ origin2 _ _

variable (m : (ℓ : Loc nD τ sig) → Buf (Elt F) ℓ) (ρ : Dev nD → PrngReg)

/-! ## The buffers the body is called with at a point -/

/-- Each window's current staging buffer at point `t`, and that it is a whole buffer. -/
abbrev ms0 (t : Fin cfg0.N) : Memref sig .tc .vmem S400x10000 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S10000x128 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S64x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x64 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S10000x64 .f32 := win0_4.stage (cfg0.slots t 4)
abbrev hs4 (t : Fin cfg0.N) : (ms4 t).IsWhole := Facts₀.hstage0_4 ((cfg0.slots t 4).cast Facts₀.nbuf0_4)
/-- The scratch the kernel keeps between points: a whole buffer of its own. -/
abbrev scM : Memref sig .tc .vmem S10000x64 .bf16 := Memref.whole cc0_scratch0

/-- The first grid point. -/
abbrev t₀ : Fin cfg0.N := ⟨0, lt_of_lt_of_eq (by decide : (0 : ℕ) < 25) N_0.symm⟩

/-! ## What the kernel computes, over the arrays as the region finds them -/

/-- The projection `features · weightsᵀ`: what the first point stores into the scratch, from the two arrays' whole blocks. -/
def xw (c : Dev nD) : Vec F S10000x64 .bf16 := k0_pay1 (iblk m c 1 t₀) (iblk m c 2 t₀)

/-- The 400 rows point `t` stores: its adjacency block times the projection, plus the bias row. -/
def rowsAt (c : Dev nD) (t : Fin cfg0.N) : Vec F S400x64 .f32 := k0_pay2 (iblk m c 0 t) (xw m c) (iblk m c 3 t)

/-! ## The region's invariant -/

/-- The kernel's scoped buffers other than staging buffers are its one scratch: the launch hands it over at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before the first point the scratch holds anything; from then on it holds the projection. -/
def PhiAt (c : Dev nD) : ℕ → sProp 𝕄
  | 0 => Pipeline.ΦA spec0 c
  | _ + 1 => iprop(owns (c : Thread nD τ) scM fullShare (xw m c) ∗ (∃ r, prngReg c r))

/-! ## The proof data, relational: what each point does to each buffer -/

/-- Every input buffer is left as found; the output's buffer is left as found except for the point's 400 rows, which
    hold `rowsAt`. What the output's buffer held before the first point is never named. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = stored (ms4 t) (hs4 t) (grid0.coords t) Y (rowsAt m c t)
    | ⟨_ + 5, h⟩ => absurd h (Nat.not_lt.2 (Nat.le_add_left _ _))
  Φ n := PhiAt m c n.val
  q _ := fullShare
  owed _ := 0

/-- An input's current buffer holds its block of the array wherever the body is handed it: fetched there, or left in
    place since the fetch (the block index has not moved). -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rfl

/-! ## The body obligation -/

set_option maxHeartbeats 1600000 in
/-- The body at any point, on buffers holding the inputs' blocks: at the first point the scratch holds anything and the
    first case's run applies; at a later one it holds the projection and the other case's does. Either way each input
    comes back as found, the output with the point's rows stored, and the scratch at the projection. -/
theorem sound_body (c : Dev nD) (t : Fin cfg0.N) (Y : (w : Fin cfg0.W) → (cfg0.win w).block.Idx → Elt F (cfg0.win w).elt)
    (e0 : Y 0 = iblk m c 0 t) (e1 : Y 1 = iblk m c 1 t) (e2 : Y 2 = iblk m c 2 t) (e3 : Y 3 = iblk m c 3 t) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3)
        ∗ owns (c : Thread nD τ) (ms4 t) fullShare (Y 4))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (ms0 t) fullShare X)
            ∗ (∃ X, ⌜(rdat m c).after 1 t (Y 1) X⌝ ∗ owns (c : Thread nD τ) (ms1 t) fullShare X)
            ∗ (∃ X, ⌜(rdat m c).after 2 t (Y 2) X⌝ ∗ owns (c : Thread nD τ) (ms2 t) fullShare X)
            ∗ (∃ X, ⌜(rdat m c).after 3 t (Y 3) X⌝ ∗ owns (c : Thread nD τ) (ms3 t) fullShare X)
            ∗ (∃ X, ⌜(rdat m c).after 4 t (Y 4) X⌝ ∗ owns (c : Thread nD τ) (ms4 t) fullShare X))) := by
  unfold bodyAt0
  rewrite [show (rdat m c).owesAt () t.succ = (rdat m c).owesAt () t.castSucc from rfl]
  rewrite [show (rdat m c).Φ t.castSucc = PhiAt m c t.val from rfl, show (rdat m c).Φ t.succ = PhiAt m c (t.val + 1) from rfl]
  rewrite [show PhiAt m c (t.val + 1) = iprop(owns (c : Thread nD τ) scM fullShare (xw m c) ∗ (∃ r, prngReg c r)) from rfl]
  by_cases h0 : t.val = 0
  · obtain rfl : t = t₀ := Fin.ext h0
    rewrite [show PhiAt m c (t₀ : Fin cfg0.N).val = Pipeline.ΦA spec0 c from rfl, PhiA_eq]
    iintro ⟨⟨⟨%d, HS⟩, Hg⟩, Ho, H0, H1, H2, H3, H4⟩
    iapply (run_first c (grid0.coords t₀) (ms0 t₀) (hs0 t₀) (ms1 t₀) (hs1 t₀) (ms2 t₀) (hs2 t₀) (ms3 t₀) (hs3 t₀) (ms4 t₀) (hs4 t₀)
      scM (Memref.isWhole_whole _) ((hcond0 t₀).mpr rfl) (Y 0) (Y 1) (Y 2) (Y 3) (Y 4) d Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · rewrite [show xw m c = k0_pay1 (Y 1) (Y 2) from by unfold xw; rw [e1, e2]]
        iexact HS
      · iexact Hg
    isplitl [Ho]; · iexact Ho
    isplitl [H0]; · iexists _; isplitr; · ipureintro; exact (rfl : Y 0 = Y 0)
                    iexact H0
    isplitl [H1]; · iexists _; isplitr; · ipureintro; exact (rfl : Y 1 = Y 1)
                    iexact H1
    isplitl [H2]; · iexists _; isplitr; · ipureintro; exact (rfl : Y 2 = Y 2)
                    iexact H2
    isplitl [H3]; · iexists _; isplitr; · ipureintro; exact (rfl : Y 3 = Y 3)
                    iexact H3
    iexists _; isplitr
    swap; · iexact H4
    ipureintro
    show stored (ms4 t₀) (hs4 t₀) (grid0.coords t₀) (Y 4) (k0_pay2 (Y 0) (k0_pay1 (Y 1) (Y 2)) (Y 3))
      = stored (ms4 t₀) (hs4 t₀) (grid0.coords t₀) (Y 4) (rowsAt m c t₀)
    unfold rowsAt xw; rw [e0, e1, e2, e3]
  · obtain ⟨k, hk⟩ := Nat.exists_eq_succ_of_ne_zero h0
    rewrite [show PhiAt m c t.val = iprop(owns (c : Thread nD τ) scM fullShare (xw m c) ∗ (∃ r, prngReg c r)) from by rw [hk]; rfl]
    iintro ⟨⟨HS, Hg⟩, Ho, H0, H1, H2, H3, H4⟩
    iapply (run_later c (grid0.coords t) (ms0 t) (hs0 t) (ms1 t) (hs1 t) (ms2 t) (hs2 t) (ms3 t) (hs3 t) (ms4 t) (hs4 t)
      scM (Memref.isWhole_whole _) (fun h => h0 ((hcond0 t).mp h)) (Y 0) (Y 1) (Y 2) (Y 3) (Y 4) (xw m c) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexact HS
      · iexact Hg
    isplitl [Ho]; · iexact Ho
    isplitl [H0]; · iexists _; isplitr; · ipureintro; exact (rfl : Y 0 = Y 0)
                    iexact H0
    isplitl [H1]; · iexists _; isplitr; · ipureintro; exact (rfl : Y 1 = Y 1)
                    iexact H1
    isplitl [H2]; · iexists _; isplitr; · ipureintro; exact (rfl : Y 2 = Y 2)
                    iexact H2
    isplitl [H3]; · iexists _; isplitr; · ipureintro; exact (rfl : Y 3 = Y 3)
                    iexact H3
    iexists _; isplitr
    swap; · iexact H4
    ipureintro
    show stored (ms4 t) (hs4 t) (grid0.coords t) (Y 4) (k0_pay2 (Y 0) (xw m c) (Y 3))
      = stored (ms4 t) (hs4 t) (grid0.coords t) (Y 4) (rowsAt m c t)
    unfold rowsAt; rw [e0, e3]

/-- The body obligation, at every point: what the input buffers may hold there is their blocks of the arrays. -/
theorem body_obligation (c : Dev nD) : (rdat m c).BodyObligation (defs₀ (F := F)) Variants.none () Set.univ := fun t Y hY => by
  rw [bigSep_W0, bigSep_W0]
  exact sound_body m c t Y (finds0 m c t _ (hY 0)) (finds1 m c t _ (hY 1)) (finds2 m c t _ (hY 2)) (finds3 m c t _ (hY 3))

/-- What the launch hands the region is the invariant before the first point. -/
theorem hin (c : Dev nD) : Pipeline.ΦA spec0 c ⊢ (rdat m c).Φ 0 := .rfl

/-- After the last point the invariant gives the scratch back at some contents: the projection is forgotten. -/
theorem hout (c : Dev nD) : (rdat m c).Φ (Fin.last cfg0.N) ⊢ Pipeline.ΦA spec0 c := by
  rewrite [show (rdat m c).Φ (Fin.last cfg0.N) = iprop(owns (c : Thread nD τ) scM fullShare (xw m c) ∗ (∃ r, prngReg c r)) from rfl, PhiA_eq]
  iintro ⟨HS, Hg⟩
  isplitl [HS]
  · iexists _; iexact HS
  iexact Hg

/-! ## The run and the frame -/

set_option backward.isDefEq.respectTransparency.types false in
/-- Every weakly fair execution of the program terminates without a fault; at the end each windowed array holds
    contents it may hold after the write-backs (for the output: its entry contents overwritten at the last point by
    what the body left there), and every other unscoped buffer is as the region found it. -/
theorem run_main : θ_run defs (onTc (τ := τ) (main (F := F))) (s₀ m ρ) (RDat.FramePost cfg0 (rdat m) (V m)) :=
  Pipeline.RDat.θ_run_frame_track cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hin := hin m) (hout := hout m)

/-- The frame: the program runs, and its four argument arrays end as launched (three are staged inputs, never written
    back; the bias vector is staged through a reshaped copy and bypasses the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(show r.2.mem _ = (rdat m c).A 1 from by have := (h c).1 1; rwa [(rdat m c).ArrAt_in 1 rfl] at this).trans (V_main_arg0 m c),
     (show r.2.mem _ = (rdat m c).A 0 from by have := (h c).1 0; rwa [(rdat m c).ArrAt_in 0 rfl] at this).trans (V_main_arg1 m c),
     (show r.2.mem _ = (rdat m c).A 2 from by have := (h c).1 2; rwa [(rdat m c).ArrAt_in 2 rfl] at this).trans (V_main_arg2 m c),
     ((h c).2 main_arg3 (Pipeline.mem_restRefs_of main_arg3 (by decide) (by decide))).trans (V_main_arg3 m c)⟩) (run_main m ρ)

end Cert.Kernel.Body

end
-- ==== Proof.BodyIdeal.lean ====
/-
  The frame of the idealized kernel: one region of 25 grid points. At every point the body multiplies its 400-row
  block of the adjacency matrix by the projection `features · weightsᵀ` held in a scratch buffer, adds the bias row,
  and stores the 400 result rows into the output's resident buffer at rows [400 · t, 400 · t + 400); the first
  point also computes the projection and stores it over the whole scratch. The output's buffer is written back
  once, after the last point.

  What each point does to each buffer is stated as a relation between the contents found and the contents left:
  an input is left as found; the output is left as found except for the point's rows. The scratch's contents are
  carried by the region's invariant: anything before the first point, the projection afterwards. From the run
  follow termination without a fault and that the four argument arrays end as launched.
-/
import proofs.«123032_g65816078844241_cont_9to1c4b_298_21_alg».proof.Proof.Gen.KernelIdeal.Frame
import proofs.«123032_g65816078844241_cont_9to1c4b_298_21_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The body's branch: taken at the first grid point only -/

/-- The condition of the body's one conditional, as a proposition about the grid coordinates: the coordinate is zero. -/
abbrev cond0 (i : grid0.Coords) : Prop :=
  Scalar.cmpi .ne (Scalar.extui (Scalar.cmpi .eq (BitVec.ofNat 32 (i 0).val) 0#32)) 0#32 = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-! ## Whole-buffer loads and stores -/

/-- The offsets of a rectangle that starts at the origin of a matrix. -/
theorem origin2 : (![0, 0] : Fin 2 → ℕ) = fun _ => 0 := by
  funext a; match a with | ⟨0, _⟩ => rfl | ⟨1, _⟩ => rfl

/-- Loading a whole buffer through the rectangle that is all of it reads the buffer's contents. -/
theorem load_whole {S : Shape} {e : EltTy} (mm : Memref sig .tc .vmem S e) (h : mm.IsWhole) {off : Fin S.rank → ℕ}
    (hz : off = fun _ => 0) (inb : ∀ a, off a + S.size a ≤ S.size a) (x : S.Idx → Elt F e) :
    View.readAt (Elt F) mm.view (Rect.unit (s := S) off S.size inb).toLoadRect (h.unread x) = x :=
  (View.readAt_eq_ld mm.view (h.unread x) (Rect.unit (s := S) off S.size inb)).trans
    ((congrArg (fun f => View.ld f (Rect.unit (s := S) off S.size inb)) (h.read_unread x)).trans (View.ld_unit_zero hz inb x))

/-- A buffer stored whole reads the payload, whatever it held. -/
theorem read_store_whole {S : Shape} {e : EltTy} (mm : Memref sig .tc .vmem S e) (f : mm.view.ty.Contents (Elt F))
    {off : Fin S.rank → ℕ} (hz : off = fun _ => 0) (inb : ∀ a, off a + S.size a ≤ S.size a) (w : S.Idx → Elt F e) :
    mm.view.read (Elt F) (mm.view.writes (Elt F) f [⟨Rect.unit (s := S) off S.size inb, w⟩]) = w :=
  (View.read_writes_eq_canon mm.view f _ (fun y => ⟨_, List.mem_singleton.mpr rfl,
    (View.mem_set_unit_zero hz inb y)⟩)).trans (View.canon_unit_zero hz inb w)

/-! ## What one point leaves in the output's buffer -/

/-- The output's buffer read after the rows of one point, the payload `p`, are stored over contents `y`: rows
    `[400 · i, 400 · i + 400)` are `p`, every other row is `y`'s. -/
def stored (arg5 : Memref sig .tc .vmem S10000x64 .f32) (harg5 : arg5.IsWhole) (i : grid0.Coords)
    (y : Vec F S10000x64 .f32) (p : Vec F S400x64 .f32) : Vec F S10000x64 .f32 :=
  arg5.view.read (Elt F) (arg5.view.writes (Elt F) (harg5.unread y)
    [⟨Rect.unit (s := S10000x64) (k0_off1 i) S400x64.size (Facts₀.k0_off1_inb i), p⟩])

/-! ## The body run on any whole buffers, in its two cases -/

set_option maxHeartbeats 1000000 in
/-- At a point other than the first the body leaves the projection in the scratch as it found it (`xs`), and stores
    into the output's buffer the rows `adjacency block · xs + bias row`; every input buffer is left as found. -/
theorem run_later (c : Dev nD) (i : grid0.Coords)
    (arg1 : Memref sig .tc .vmem S400x10000 .f32) (harg1 : arg1.IsWhole) (arg2 : Memref sig .tc .vmem S10000x128 .f32) (harg2 : arg2.IsWhole)
    (arg3 : Memref sig .tc .vmem S64x128 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S10000x64 .bf16) (harg6 : arg6.IsWhole)
    (hc0 : ¬cond0 i)
    (x0 : Vec F S400x10000 .f32) (x1 : Vec F S10000x128 .f32) (x2 : Vec F S64x128 .f32) (x3 : Vec F S1x64 .f32)
    (y4 : Vec F S10000x64 .f32) (xs : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored arg5 harg5 i y4 (k0_pay2 x0 xs x3))
            ∗ owns (c : Thread nD τ) arg6 fullShare xs) -∗ K ⟨⟩))
      ⊢ wp frame (wpE (defs₀ (F := F)) Variants.none c none) E (cc0__sgc_kernel i arg1 harg1 arg2 harg2 arg3 harg3 arg4 harg4 arg5 harg5 arg6 harg6) K := by
  simp only [cc0__sgc_kernel_eq_skeleton]; unfold cc0__sgc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0)
  sl_step
  rw [load_whole arg1 harg1 origin2, load_whole arg6 harg6 origin2, load_whole arg4 harg4 origin2]
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; rfl
                  iexact H4
  iexists _; isplitr; · ipureintro; exact hfs
  iexact HS

set_option maxHeartbeats 1000000 in
/-- At the first point the body first stores the projection `features · weightsᵀ` over the whole scratch, whatever it
    held, and then does what it does at every point with that projection. -/
theorem run_first (c : Dev nD) (i : grid0.Coords)
    (arg1 : Memref sig .tc .vmem S400x10000 .f32) (harg1 : arg1.IsWhole) (arg2 : Memref sig .tc .vmem S10000x128 .f32) (harg2 : arg2.IsWhole)
    (arg3 : Memref sig .tc .vmem S64x128 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S10000x64 .bf16) (harg6 : arg6.IsWhole)
    (hc0 : cond0 i)
    (x0 : Vec F S400x10000 .f32) (x1 : Vec F S10000x128 .f32) (x2 : Vec F S64x128 .f32) (x3 : Vec F S1x64 .f32)
    (y4 : Vec F S10000x64 .f32) (xs : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored arg5 harg5 i y4 (k0_pay2 x0 (k0_pay1 x1 x2) x3))
            ∗ owns (c : Thread nD τ) arg6 fullShare (k0_pay1 x1 x2)) -∗ K ⟨⟩))
      ⊢ wp frame (wpE (defs₀ (F := F)) Variants.none c none) E (cc0__sgc_kernel i arg1 harg1 arg2 harg2 arg3 harg3 arg4 harg4 arg5 harg5 arg6 harg6) K := by
  simp only [cc0__sgc_kernel_eq_skeleton]; unfold cc0__sgc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0)
  sl_step
  sl_unfold_run_names
  rw [View.readCov_unit_zero arg6.view origin2, load_whole arg1 harg1 origin2, load_whole arg2 harg2 origin2,
    load_whole arg3 harg3 origin2, load_whole arg4 harg4 origin2]
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; rfl
                  iexact H4
  iexists _; isplitr
  swap; · iexact HS
  ipureintro; exact read_store_whole arg6 _ origin2 _ _

variable (m : (ℓ : Loc nD τ sig) → Buf (Elt F) ℓ) (ρ : Dev nD → PrngReg)

/-! ## The buffers the body is called with at a point -/

/-- Each window's current staging buffer at point `t`, and that it is a whole buffer. -/
abbrev ms0 (t : Fin cfg0.N) : Memref sig .tc .vmem S400x10000 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S10000x128 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S64x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x64 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S10000x64 .f32 := win0_4.stage (cfg0.slots t 4)
abbrev hs4 (t : Fin cfg0.N) : (ms4 t).IsWhole := Facts₀.hstage0_4 ((cfg0.slots t 4).cast Facts₀.nbuf0_4)
/-- The scratch the kernel keeps between points: a whole buffer of its own. -/
abbrev scM : Memref sig .tc .vmem S10000x64 .bf16 := Memref.whole cc0_scratch0

/-- The first grid point. -/
abbrev t₀ : Fin cfg0.N := ⟨0, lt_of_lt_of_eq (by decide : (0 : ℕ) < 25) N_0.symm⟩

/-! ## What the kernel computes, over the arrays as the region finds them -/

/-- The projection `features · weightsᵀ`: what the first point stores into the scratch, from the two arrays' whole blocks. -/
def xw (c : Dev nD) : Vec F S10000x64 .bf16 := k0_pay1 (iblk m c 1 t₀) (iblk m c 2 t₀)

/-- The 400 rows point `t` stores: its adjacency block times the projection, plus the bias row. -/
def rowsAt (c : Dev nD) (t : Fin cfg0.N) : Vec F S400x64 .f32 := k0_pay2 (iblk m c 0 t) (xw m c) (iblk m c 3 t)

/-! ## The region's invariant -/

/-- The kernel's scoped buffers other than staging buffers are its one scratch: the launch hands it over at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before the first point the scratch holds anything; from then on it holds the projection. -/
def PhiAt (c : Dev nD) : ℕ → sProp 𝕄
  | 0 => Pipeline.ΦA spec0 c
  | _ + 1 => iprop(owns (c : Thread nD τ) scM fullShare (xw m c) ∗ (∃ r, prngReg c r))

/-! ## The proof data, relational: what each point does to each buffer -/

/-- Every input buffer is left as found; the output's buffer is left as found except for the point's 400 rows, which
    hold `rowsAt`. What the output's buffer held before the first point is never named. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = stored (ms4 t) (hs4 t) (grid0.coords t) Y (rowsAt m c t)
    | ⟨_ + 5, h⟩ => absurd h (Nat.not_lt.2 (Nat.le_add_left _ _))
  Φ n := PhiAt m c n.val
  q _ := fullShare
  owed _ := 0

/-- An input's current buffer holds its block of the array wherever the body is handed it: fetched there, or left in
    place since the fetch (the block index has not moved). -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rfl

/-! ## The body obligation -/

set_option maxHeartbeats 1600000 in
/-- The body at any point, on buffers holding the inputs' blocks: at the first point the scratch holds anything and the
    first case's run applies; at a later one it holds the projection and the other case's does. Either way each input
    comes back as found, the output with the point's rows stored, and the scratch at the projection. -/
theorem sound_body (c : Dev nD) (t : Fin cfg0.N) (Y : (w : Fin cfg0.W) → (cfg0.win w).block.Idx → Elt F (cfg0.win w).elt)
    (e0 : Y 0 = iblk m c 0 t) (e1 : Y 1 = iblk m c 1 t) (e2 : Y 2 = iblk m c 2 t) (e3 : Y 3 = iblk m c 3 t) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3)
        ∗ owns (c : Thread nD τ) (ms4 t) fullShare (Y 4))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (ms0 t) fullShare X)
            ∗ (∃ X, ⌜(rdat m c).after 1 t (Y 1) X⌝ ∗ owns (c : Thread nD τ) (ms1 t) fullShare X)
            ∗ (∃ X, ⌜(rdat m c).after 2 t (Y 2) X⌝ ∗ owns (c : Thread nD τ) (ms2 t) fullShare X)
            ∗ (∃ X, ⌜(rdat m c).after 3 t (Y 3) X⌝ ∗ owns (c : Thread nD τ) (ms3 t) fullShare X)
            ∗ (∃ X, ⌜(rdat m c).after 4 t (Y 4) X⌝ ∗ owns (c : Thread nD τ) (ms4 t) fullShare X))) := by
  unfold bodyAt0
  rewrite [show (rdat m c).owesAt () t.succ = (rdat m c).owesAt () t.castSucc from rfl]
  rewrite [show (rdat m c).Φ t.castSucc = PhiAt m c t.val from rfl, show (rdat m c).Φ t.succ = PhiAt m c (t.val + 1) from rfl]
  rewrite [show PhiAt m c (t.val + 1) = iprop(owns (c : Thread nD τ) scM fullShare (xw m c) ∗ (∃ r, prngReg c r)) from rfl]
  by_cases h0 : t.val = 0
  · obtain rfl : t = t₀ := Fin.ext h0
    rewrite [show PhiAt m c (t₀ : Fin cfg0.N).val = Pipeline.ΦA spec0 c from rfl, PhiA_eq]
    iintro ⟨⟨⟨%d, HS⟩, Hg⟩, Ho, H0, H1, H2, H3, H4⟩
    iapply (run_first c (grid0.coords t₀) (ms0 t₀) (hs0 t₀) (ms1 t₀) (hs1 t₀) (ms2 t₀) (hs2 t₀) (ms3 t₀) (hs3 t₀) (ms4 t₀) (hs4 t₀)
      scM (Memref.isWhole_whole _) ((hcond0 t₀).mpr rfl) (Y 0) (Y 1) (Y 2) (Y 3) (Y 4) d Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · rewrite [show xw m c = k0_pay1 (Y 1) (Y 2) from by unfold xw; rw [e1, e2]]
        iexact HS
      · iexact Hg
    isplitl [Ho]; · iexact Ho
    isplitl [H0]; · iexists _; isplitr; · ipureintro; exact (rfl : Y 0 = Y 0)
                    iexact H0
    isplitl [H1]; · iexists _; isplitr; · ipureintro; exact (rfl : Y 1 = Y 1)
                    iexact H1
    isplitl [H2]; · iexists _; isplitr; · ipureintro; exact (rfl : Y 2 = Y 2)
                    iexact H2
    isplitl [H3]; · iexists _; isplitr; · ipureintro; exact (rfl : Y 3 = Y 3)
                    iexact H3
    iexists _; isplitr
    swap; · iexact H4
    ipureintro
    show stored (ms4 t₀) (hs4 t₀) (grid0.coords t₀) (Y 4) (k0_pay2 (Y 0) (k0_pay1 (Y 1) (Y 2)) (Y 3))
      = stored (ms4 t₀) (hs4 t₀) (grid0.coords t₀) (Y 4) (rowsAt m c t₀)
    unfold rowsAt xw; rw [e0, e1, e2, e3]
  · obtain ⟨k, hk⟩ := Nat.exists_eq_succ_of_ne_zero h0
    rewrite [show PhiAt m c t.val = iprop(owns (c : Thread nD τ) scM fullShare (xw m c) ∗ (∃ r, prngReg c r)) from by rw [hk]; rfl]
    iintro ⟨⟨HS, Hg⟩, Ho, H0, H1, H2, H3, H4⟩
    iapply (run_later c (grid0.coords t) (ms0 t) (hs0 t) (ms1 t) (hs1 t) (ms2 t) (hs2 t) (ms3 t) (hs3 t) (ms4 t) (hs4 t)
      scM (Memref.isWhole_whole _) (fun h => h0 ((hcond0 t).mp h)) (Y 0) (Y 1) (Y 2) (Y 3) (Y 4) (xw m c) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexact HS
      · iexact Hg
    isplitl [Ho]; · iexact Ho
    isplitl [H0]; · iexists _; isplitr; · ipureintro; exact (rfl : Y 0 = Y 0)
                    iexact H0
    isplitl [H1]; · iexists _; isplitr; · ipureintro; exact (rfl : Y 1 = Y 1)
                    iexact H1
    isplitl [H2]; · iexists _; isplitr; · ipureintro; exact (rfl : Y 2 = Y 2)
                    iexact H2
    isplitl [H3]; · iexists _; isplitr; · ipureintro; exact (rfl : Y 3 = Y 3)
                    iexact H3
    iexists _; isplitr
    swap; · iexact H4
    ipureintro
    show stored (ms4 t) (hs4 t) (grid0.coords t) (Y 4) (k0_pay2 (Y 0) (xw m c) (Y 3))
      = stored (ms4 t) (hs4 t) (grid0.coords t) (Y 4) (rowsAt m c t)
    unfold rowsAt; rw [e0, e3]

/-- The body obligation, at every point: what the input buffers may hold there is their blocks of the arrays. -/
theorem body_obligation (c : Dev nD) : (rdat m c).BodyObligation (defs₀ (F := F)) Variants.none () Set.univ := fun t Y hY => by
  rw [bigSep_W0, bigSep_W0]
  exact sound_body m c t Y (finds0 m c t _ (hY 0)) (finds1 m c t _ (hY 1)) (finds2 m c t _ (hY 2)) (finds3 m c t _ (hY 3))

/-- What the launch hands the region is the invariant before the first point. -/
theorem hin (c : Dev nD) : Pipeline.ΦA spec0 c ⊢ (rdat m c).Φ 0 := .rfl

/-- After the last point the invariant gives the scratch back at some contents: the projection is forgotten. -/
theorem hout (c : Dev nD) : (rdat m c).Φ (Fin.last cfg0.N) ⊢ Pipeline.ΦA spec0 c := by
  rewrite [show (rdat m c).Φ (Fin.last cfg0.N) = iprop(owns (c : Thread nD τ) scM fullShare (xw m c) ∗ (∃ r, prngReg c r)) from rfl, PhiA_eq]
  iintro ⟨HS, Hg⟩
  isplitl [HS]
  · iexists _; iexact HS
  iexact Hg

/-! ## The run and the frame -/

set_option backward.isDefEq.respectTransparency.types false in
/-- Every weakly fair execution of the program terminates without a fault; at the end each windowed array holds
    contents it may hold after the write-backs (for the output: its entry contents overwritten at the last point by
    what the body left there), and every other unscoped buffer is as the region found it. -/
theorem run_main : θ_run defs (onTc (τ := τ) (main (F := F))) (s₀ m ρ) (RDat.FramePost cfg0 (rdat m) (V m)) :=
  Pipeline.RDat.θ_run_frame_track cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hin := hin m) (hout := hout m)

/-- The frame: the program runs, and its four argument arrays end as launched (three are staged inputs, never written
    back; the bias vector is staged through a reshaped copy and bypasses the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(show r.2.mem _ = (rdat m c).A 1 from by have := (h c).1 1; rwa [(rdat m c).ArrAt_in 1 rfl] at this).trans (V_main_arg0 m c),
     (show r.2.mem _ = (rdat m c).A 0 from by have := (h c).1 0; rwa [(rdat m c).ArrAt_in 0 rfl] at this).trans (V_main_arg1 m c),
     (show r.2.mem _ = (rdat m c).A 2 from by have := (h c).1 2; rwa [(rdat m c).ArrAt_in 2 rfl] at this).trans (V_main_arg2 m c),
     ((h c).2 main_arg3 (Pipeline.mem_restRefs_of main_arg3 (by decide) (by decide))).trans (V_main_arg3 m c)⟩) (run_main m ρ)

end Cert.KernelIdeal.Body

end
-- ==== Proof.OutputRows.lean ====
/-
  What the output array holds after the run, row by row (any float instance).

  The output's resident buffer is filled 400 rows per grid point: point s stores rows [400 · s, 400 · s + 400). Rows of
  different points are disjoint, so by induction on the point: after point n, for every s ≤ n the rows of point s
  still hold what point s stored, whatever the buffer held before the first point. After the last point (n = 24)
  all 25 · 400 = 10000 rows are stored; the write-back then copies the whole buffer over the whole array (the
  window's block is the array), so every entry of the final array is the entry some point stored.
-/
import proofs.«123032_g65816078844241_cont_9to1c4b_298_21_alg».proof.Proof.BodyIdeal
import Idealize.ShloMosaic.Lib.WritesUnit
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (RDat)

variable {F : FTy → Type} [FloatOps F]
variable (m : (ℓ : Loc nD τ sig) → Buf (Elt F) ℓ)

/-! ## Where a point's rows lie -/

/-- The grid is one axis: point `t`'s coordinate is `t`. -/
theorem coord_val : ∀ t : Fin cfg0.N, ((grid0.coords t) 0).val = t.val :=
  (by decide +kernel : ∀ t : Fin grid0.N, ((grid0.coords t) 0).val = t.val)

/-- Point `t` stores at row `400 · t`, column 0. -/
theorem off_eq (t : Fin cfg0.N) : k0_off1 (grid0.coords t) = ![400 * t.val, 0] := by
  rw [k0_off1_eq, coord_val]

/-- Inside the point's rows the buffer reads the payload. -/
theorem stored_in (arg5 : Memref sig .tc .vmem S10000x64 .f32) (harg5 : arg5.IsWhole) (t : Fin cfg0.N)
    (y : Vec F S10000x64 .f32) (p : Vec F S400x64 .f32) (i : S10000x64.Idx) (x : S400x64.Idx)
    (h0 : (i 0).val = 400 * t.val + (x 0).val) (h1 : (i 1).val = (x 1).val) :
    stored arg5 harg5 (grid0.coords t) y p i = p x := by
  unfold stored
  exact View.read_writes_cons_rows_of_mem arg5.view _ (Facts₀.k0_off1_inb _) p [] i x (off_eq t) h0 h1

/-- Outside them it reads what it held. -/
theorem stored_out (arg5 : Memref sig .tc .vmem S10000x64 .f32) (harg5 : arg5.IsWhole) (t : Fin cfg0.N)
    (y : Vec F S10000x64 .f32) (p : Vec F S400x64 .f32) (i : S10000x64.Idx)
    (h : (i 0).val < 400 * t.val ∨ 400 * t.val + 400 ≤ (i 0).val) :
    stored arg5 harg5 (grid0.coords t) y p i = y i := by
  unfold stored
  rw [View.read_writes_cons_rows_of_not_mem arg5.view _ (Facts₀.k0_off1_inb _) p [] i (off_eq t)
    (show S400x64.size (0 : Fin 2) = 400 from rfl) h, View.writes_nil, harg5.read_unread]

/-! ## The schedule of the output window -/

/-- The output is never fetched, -/
theorem fetch4 : ∀ t : Fin cfg0.N, (cfg0.win 4).fetch t = false :=
  (by decide +kernel : ∀ t : Fin grid0.N, win0_4.fetch t = false)

/-- its block index is zero on both axes at every point (the block is the whole array), -/
theorem index4 : ∀ (t : Fin cfg0.N) (a : Fin 2), win0_4.index t a = 0 :=
  (by decide +kernel : ∀ (t : Fin grid0.N) (a : Fin 2), win0_4.index t a = 0)

/-- and it is written back after the last point only. -/
theorem noflush4 (n : ℕ) (hn : n < cfg0.N) (h : n ≠ 24) : (cfg0.win 4).flush ⟨n, hn⟩ = false := by
  have hN : n < 25 := lt_of_lt_of_eq hn N_0
  by_contra hc
  have := (flush0_4 ⟨n, hn⟩).mp (by simpa using hc)
  simp only at this
  omega

/-! ## Rows stored so far -/

/-- After point `n` the rows of every point `s ≤ n` hold what point `s` stored. -/
theorem leaves_rows (c : Dev nD) : ∀ (n : ℕ) (hn : n < cfg0.N) (X : (cfg0.win 4).block.Idx → Elt F (cfg0.win 4).elt),
    (rdat m c).Leaves 4 ⟨n, hn⟩ X →
    ∀ (s : ℕ) (hs : s ≤ n) (i : S10000x64.Idx) (x : S400x64.Idx), (i 0).val = 400 * s + (x 0).val → (i 1).val = (x 1).val →
      X i = rowsAt m c ⟨s, lt_of_le_of_lt hs hn⟩ x
  | 0, hn, X, ⟨Y, _, hX⟩, s, hs, i, x, h0, h1 => by
    obtain rfl : s = 0 := Nat.le_zero.mp hs
    have hX' : X = stored (ms4 ⟨0, hn⟩) (hs4 ⟨0, hn⟩) (grid0.coords ⟨0, hn⟩) Y (rowsAt m c ⟨0, hn⟩) := hX
    rw [hX']
    exact stored_in _ _ ⟨0, hn⟩ Y _ i x h0 h1
  | n + 1, hn, X, ⟨Y, hY, hX⟩, s, hs, i, x, h0, h1 => by
    have hX' : X = stored (ms4 ⟨n + 1, hn⟩) (hs4 ⟨n + 1, hn⟩) (grid0.coords ⟨n + 1, hn⟩) Y (rowsAt m c ⟨n + 1, hn⟩) := hX
    have hn' : n < cfg0.N := Nat.lt_of_succ_lt hn
    have hprev : (rdat m c).Leaves 4 ⟨n, hn'⟩ Y := by
      rcases ((rdat m c).finds_of_pos (w := 4) (t := ⟨n + 1, hn⟩) (fetch4 _) (Nat.succ_ne_zero n) Y).mp hY with hfl | hl
      · have hN : n + 1 < 25 := lt_of_lt_of_eq hn N_0
        have hnf := noflush4 n hn' (by omega)
        have hfl' : (cfg0.win 4).flush ⟨n, hn'⟩ = true := hfl
        rw [hnf] at hfl'; exact absurd hfl' Bool.false_ne_true
      · exact hl
    rw [hX']
    by_cases hsn : s = n + 1
    · subst hsn; exact stored_in _ _ ⟨n + 1, hn⟩ Y _ i x h0 h1
    · have hx : (x 0).val < 400 := idx2_lt0 x
      rw [stored_out _ _ ⟨n + 1, hn⟩ Y _ i (Or.inl (by show (i 0).val < 400 * (n + 1); rw [h0]; omega))]
      exact leaves_rows c n hn' Y hprev s (by omega) i x h0 h1

/-! ## The array after the run -/

/-- Before the last point's write-back the output array is as the region found it. -/
theorem arrAt_before (c : Dev nD) : ∀ n : ℕ, n ≤ 24 → (rdat m c).ArrAt 4 n = fun G => G = (rdat m c).A 4
  | 0, _ => rfl
  | n + 1, h => by
    have hN : n < cfg0.N := lt_of_lt_of_eq (by omega : n < 25) N_0.symm
    have ih := arrAt_before c n (by omega)
    show (if h : n < cfg0.N then if (cfg0.win 4).flush ⟨n, h⟩ then (rdat m c).ArrStep 4 ⟨n, h⟩ ((rdat m c).ArrAt 4 n) else (rdat m c).ArrAt 4 n
      else (rdat m c).ArrAt 4 n) = _
    rw [dif_pos hN, noflush4 n hN (by omega)]
    exact ih

/-- Every entry of the array the run leaves is the entry its point stored: entry `(400 · s + x₀, x₁)` is entry `x` of
    the rows of point `s`. -/
theorem final_rows (c : Dev nD) (G : Buf (Elt F) ((cfg0.win 4).arr.view.loc (c.tc : Thread nD τ)))
    (h : (rdat m c).ArrAt 4 cfg0.N G) (s : ℕ) (hs : s < cfg0.N) (i : S10000x64.Idx) (x : S400x64.Idx)
    (h0 : (i 0).val = 400 * s + (x 0).val) (h1 : (i 1).val = (x 1).val) : G i = rowsAt m c ⟨s, hs⟩ x := by
  have h24 : 24 < cfg0.N := lt_of_lt_of_eq (by decide : 24 < 25) N_0.symm
  have hfl : (cfg0.win 4).flush ⟨24, h24⟩ = true := (flush0_4 ⟨24, h24⟩).mpr rfl
  have h' : (rdat m c).ArrAt 4 (24 + 1) G := by
    have e : cfg0.N = 24 + 1 := N_0
    rw [e] at h; exact h
  have h'' : (rdat m c).ArrStep 4 ⟨24, h24⟩ ((rdat m c).ArrAt 4 24) G := by
    have : (if h : 24 < cfg0.N then if (cfg0.win 4).flush ⟨24, h⟩ then (rdat m c).ArrStep 4 ⟨24, h⟩ ((rdat m c).ArrAt 4 24) else (rdat m c).ArrAt 4 24
      else (rdat m c).ArrAt 4 24) G := h'
    rw [dif_pos h24, if_pos hfl] at this; exact this
  obtain ⟨G₀, X, -, hL, hG⟩ := h''
  have hrows := leaves_rows m c 24 h24 X hL s (by have := lt_of_lt_of_eq hs N_0; omega) i x h0 h1
  rw [← hrows, hG]
  -- the write-back of the last point: the whole buffer over the whole array
  have hblk : (cfg0.win 4).cut (grid0.coords ⟨24, h24⟩) X = ((cfg0.win 4).blk ⟨24, h24⟩).view.read (Elt F) (X : Buf (Elt F) ((cfg0.win 4).arr.view.loc (c.tc : Thread nD τ))) := by
    funext y
    rw [View.read_apply]
    show X y = X (((cfg0.win 4).blk ⟨24, h24⟩).view.emb y)
    congr 1
    funext a; apply Fin.ext
    exact (win0_4.rect_emb_val_of_index_zero ⟨24, h24⟩ a (index4 ⟨24, h24⟩ a) y).symm
  rw [hblk, View.write_read_eq_piecewise, Finset.piecewise_eq_of_mem]
  rw [View.setOn_univ]
  show i ∈ ((View.whole main_v1).slice (win0_4.rect ⟨24, h24⟩)).set
  rw [View.set_slice_whole, Rect.mem_set_unit]
  intro a
  have := index4 ⟨24, h24⟩ a
  match a with
  | ⟨0, _⟩ => exact ⟨by show win0_4.index ⟨24, h24⟩ (0 : Fin 2) * 10000 ≤ (i 0).val; rw [index4]; omega,
      by show (i 0).val < win0_4.index ⟨24, h24⟩ (0 : Fin 2) * 10000 + 10000; rw [index4]; have := idx2_lt0 i; omega⟩
  | ⟨1, _⟩ => exact ⟨by show win0_4.index ⟨24, h24⟩ (1 : Fin 2) * 64 ≤ (i 1).val; rw [index4]; omega,
      by show (i 1).val < win0_4.index ⟨24, h24⟩ (1 : Fin 2) * 64 + 64; rw [index4]; have := idx2_lt1 i; omega⟩

end Cert.KernelIdeal.Body

end
-- ==== Proof.PayloadIdeal.lean ====
/-
  The two values the kernel body stores, read at one index, on the extended reals.

  The first is the projection x · wᵀ: entry (j, o) is  ∑ q, x (j, q) * w (o, q)  (both operands are contracted along
  their second axis). The second is a block of rows of a · p plus the bias row: entry (r, o) is
  (∑ j, a (r, j) * p (j, o)) + b (0, o)  (the left operand contracted along its second axis, the right along its first;
  the one bias row is repeated on every row of the block).

  On the extended reals a change of float format is the identity, a shape cast to the same shape is the identity, and a
  product of matrices accumulated into the zero matrix is the plain sum of products over the contracted axis. The only
  work is to re-index that sum, which runs over the one-axis contraction index set, by the contracted coordinate itself,
  and to read off the two operand indices coordinate by coordinate.
-/
import proofs.«123032_g65816078844241_cont_9to1c4b_298_21_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

variable [Cert.KernelIdeal.Facts]

/-! ## The first product, x · wᵀ: both operands contracted along axis 1 -/

/-- The left operand's row coordinate is the result's row coordinate. -/
theorem lhs1_0 (i : S10000x64.Idx) (q : dot_S10000x128_S64x128_S10000x64_1_1_0_0_n_n.contr.Idx) :
    (dot_S10000x128_S64x128_S10000x64_1_1_0_0_n_n.lhsIdx i q 0).val = (i 0).val := by
  unfold DotDims.lhsIdx
  rw [dif_neg (show ¬(0 : Fin S10000x128.rank) ∈ dot_S10000x128_S64x128_S10000x64_1_1_0_0_n_n.lhsBatch by decide), dif_pos (show (0 : Fin S10000x128.rank) ∈ dot_S10000x128_S64x128_S10000x64_1_1_0_0_n_n.lhsNonContracting by decide)]
  rfl

/-- The left operand's column coordinate is the contracted coordinate. -/
theorem lhs1_1 (i : S10000x64.Idx) (q : dot_S10000x128_S64x128_S10000x64_1_1_0_0_n_n.contr.Idx) :
    (dot_S10000x128_S64x128_S10000x64_1_1_0_0_n_n.lhsIdx i q 1).val = (q ⟨0, by decide⟩).val :=
  dot_S10000x128_S64x128_S10000x64_1_1_0_0_n_n.lhsIdx_val_of_single rfl i q

/-- The right operand's row coordinate is the result's column coordinate. -/
theorem rhs1_0 (i : S10000x64.Idx) (q : dot_S10000x128_S64x128_S10000x64_1_1_0_0_n_n.contr.Idx) :
    (dot_S10000x128_S64x128_S10000x64_1_1_0_0_n_n.rhsIdx i q 0).val = (i 1).val := by
  unfold DotDims.rhsIdx
  rw [dif_neg (show ¬(0 : Fin S64x128.rank) ∈ dot_S10000x128_S64x128_S10000x64_1_1_0_0_n_n.rhsBatch by decide), dif_pos (show (0 : Fin S64x128.rank) ∈ dot_S10000x128_S64x128_S10000x64_1_1_0_0_n_n.rhsNonContracting by decide)]
  rfl

/-- The right operand's column coordinate is the contracted coordinate. -/
theorem rhs1_1 (i : S10000x64.Idx) (q : dot_S10000x128_S64x128_S10000x64_1_1_0_0_n_n.contr.Idx) :
    (dot_S10000x128_S64x128_S10000x64_1_1_0_0_n_n.rhsIdx i q 1).val = (q ⟨0, by decide⟩).val :=
  dot_S10000x128_S64x128_S10000x64_1_1_0_0_n_n.rhsIdx_val_of_single rfl i q

/-- The product into the zero matrix at (j, o): the sum over q of x (j, q) * w (o, q). -/
theorem matmul1_apply (x : FVec Ideal S10000x128 .f32) (w : FVec Ideal S64x128 .f32) (j : Fin 10000) (o : Fin 64) :
    FloatOps.matmul dot_S10000x128_S64x128_S10000x64_1_1_0_0_n_n none x w (constant (F := Ideal) S10000x64 .f32 0x00000000#32) (ix2 j o)
      = ∑ q : Fin 128, x (ix2 j q) * w (ix2 o q) := by
  refine (Ideal.matmul_constant_zero_apply dot_S10000x128_S64x128_S10000x64_1_1_0_0_n_n none x w (ix2 j o)).trans ?_
  rw [← Equiv.sum_comp (contrEquiv1 dot_S10000x128_S64x128_S10000x64_1_1_0_0_n_n 128 rfl rfl).symm]
  refine Finset.sum_congr rfl fun k _ => ?_
  have hk := contrEquiv1_symm_val dot_S10000x128_S64x128_S10000x64_1_1_0_0_n_n 128 rfl rfl k
  have el : dot_S10000x128_S64x128_S10000x64_1_1_0_0_n_n.lhsIdx (ix2 j o) ((contrEquiv1 dot_S10000x128_S64x128_S10000x64_1_1_0_0_n_n 128 rfl rfl).symm k) = ix2 j k := funext fun a => Fin.ext (by
    match a with
    | ⟨0, _⟩ => exact lhs1_0 _ _
    | ⟨1, _⟩ => exact (lhs1_1 _ _).trans hk)
  have er : dot_S10000x128_S64x128_S10000x64_1_1_0_0_n_n.rhsIdx (ix2 j o) ((contrEquiv1 dot_S10000x128_S64x128_S10000x64_1_1_0_0_n_n 128 rfl rfl).symm k) = ix2 o k := funext fun a => Fin.ext (by
    match a with
    | ⟨0, _⟩ => exact rhs1_0 _ _
    | ⟨1, _⟩ => exact (rhs1_1 _ _).trans hk)
  rw [el, er]

/-- The first stored value at (j, o): entry (j, o) of x · wᵀ. -/
theorem pay1_apply (x : Vec Ideal S10000x128 .f32) (w : Vec Ideal S64x128 .f32) (j : Fin 10000) (o : Fin 64) :
    k0_pay1 (F := Ideal) x w (ix2 j o) = ∑ q : Fin 128, x (ix2 j q) * w (ix2 o q) := by
  unfold k0_pay1
  refine (congrFun (shapeCast_self _ _) (ix2 j o)).trans ?_
  exact matmul1_apply x w j o

/-! ## The second product, a · p: the left operand contracted along axis 1, the right along axis 0 -/

/-- The left operand's row coordinate is the result's row coordinate. -/
theorem lhs2_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl

/-- The left operand's column coordinate is the contracted coordinate. -/
theorem lhs2_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q

/-- The right operand's row coordinate is the contracted coordinate. -/
theorem rhs2_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q

/-- The right operand's column coordinate is the result's column coordinate. -/
theorem rhs2_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The product into the zero matrix at (r, o): the sum over j of a (r, j) * p (j, o). -/
theorem matmul2_apply (a : FVec Ideal S400x10000 .bf16) (p : FVec Ideal S10000x64 .bf16) (r : Fin 400) (o : Fin 64) :
    FloatOps.matmul dot_S400x10000_S10000x64_S400x64_1_0_0_1_n_n none a p (constant (F := Ideal) S400x64 .f32 0x00000000#32) (ix2 r o)
      = ∑ j : Fin 10000, a (ix2 r j) * p (ix2 j o) := by
  refine (Ideal.matmul_constant_zero_apply dot_S400x10000_S10000x64_S400x64_1_0_0_1_n_n none a p (ix2 r o)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 r o) ((contrEquiv1 dot_S400x10000_S10000x64_S400x64_1_0_0_1_n_n 10000 rfl rfl).symm k) = ix2 r k := funext fun b => Fin.ext (by
    match b with
    | ⟨0, _⟩ => exact lhs2_0 _ _
    | ⟨1, _⟩ => exact (lhs2_1 _ _).trans hk)
  have er : dot_S400x10000_S10000x64_S400x64_1_0_0_1_n_n.rhsIdx (ix2 r o) ((contrEquiv1 dot_S400x10000_S10000x64_S400x64_1_0_0_1_n_n 10000 rfl rfl).symm k) = ix2 k o := funext fun b => Fin.ext (by
    match b with
    | ⟨0, _⟩ => exact (rhs2_0 _ _).trans hk
    | ⟨1, _⟩ => exact rhs2_1 _ _)
  rw [el, er]

/-- The second stored value at (r, o): entry (r, o) of a · p, plus the bias row at o. -/
theorem pay2_apply (a : Vec Ideal S400x10000 .f32) (p : Vec Ideal S10000x64 .bf16) (bb : Vec Ideal S1x64 .f32) (r : Fin 400) (o : Fin 64) :
    k0_pay2 (F := Ideal) a p bb (ix2 r o) = (∑ j : Fin 10000, a (ix2 r j) * p (ix2 j o)) + bb (ix2 0 o) := by
  unfold k0_pay2
  refine (addf_apply _ _ (ix2 r o)).trans ?_
  refine congrArg₂ (· + ·) ?_ ?_
  · exact matmul2_apply (truncf .bf16 a _) p r o
  · refine (broadcastTo_1b_ab_apply _ _ r o).trans ?_
    exact congrFun (shapeCast_self bb _) (ix2 (0 : Fin 1) o)

end Cert.KernelIdeal.Payload

end
-- ==== Proof.Spec.lean ====
/-
  The two arrangements of one linear layer over an aggregated feature matrix, as functions on the extended reals.

  With  x : 10000 × 128 (features),  a : 10000 × 10000 (adjacency),  w : 64 × 128 (weights),  b : 64 (bias):

    projected-first :  out (r, o) = (∑ j, a (r, j) * (∑ q, x (j, q) * w (o, q))) + b o        -- a · (x · wᵀ) + b
    aggregated-first:  out (r, o) = (∑ q, (∑ j, a (r, j) * x (j, q)) * w (o, q)) + b o        -- (a · x) · wᵀ + b

  The two agree when every entry of x, a and w is a real number: both double sums are then finite sums of real
  products, and the identity is associativity of the matrix product. (On the extended reals it can fail: a row of
  a holding +∞ against a projected column whose terms cancel only after summation.) The bias need not be finite.
-/
import Idealize.ShloMosaic.Lib.ValueIdx
import Idealize.ShloMosaic.PureOps.Ideal

noncomputable section

open scoped BigOperators

namespace Cert.Spec

open Idealize.ShloMosaic Idealize.ShloMosaic.ValueIdx

/-- The feature matrix's shape, the adjacency's, the weights', the bias's and the result's. -/
abbrev SX : Shape := ⟨2, ![10000, 128]⟩
abbrev SA : Shape := ⟨2, ![10000, 10000]⟩
abbrev SW : Shape := ⟨2, ![64, 128]⟩
abbrev SB : Shape := ⟨1, ![64]⟩
abbrev SO : Shape := ⟨2, ![10000, 64]⟩

/-- Entry (j, o) of the projection x · wᵀ. -/
def proj (x : SX.Idx → EReal) (w : SW.Idx → EReal) (j : Fin 10000) (o : Fin 64) : EReal :=
  ∑ q : Fin 128, x (ix2 j q) * w (ix2 o q)

/-- Entry (r, q) of the aggregation a · x. -/
def agg (x : SX.Idx → EReal) (a : SA.Idx → EReal) (r : Fin 10000) (q : Fin 128) : EReal :=
  ∑ j : Fin 10000, a (ix2 r j) * x (ix2 j q)

/-- Entry (r, o) of a · (x · wᵀ) + b. -/
def projFirst (x : SX.Idx → EReal) (a : SA.Idx → EReal) (w : SW.Idx → EReal) (b : SB.Idx → EReal)
    (r : Fin 10000) (o : Fin 64) : EReal :=
  (∑ j : Fin 10000, a (ix2 r j) * proj x w j o) + b (ix1 o)

/-- Entry (r, o) of (a · x) · wᵀ + b. -/
def aggFirst (x : SX.Idx → EReal) (a : SA.Idx → EReal) (w : SW.Idx → EReal) (b : SB.Idx → EReal)
    (r : Fin 10000) (o : Fin 64) : EReal :=
  (∑ q : Fin 128, agg x a r q * w (ix2 o q)) + b (ix1 o)

/-- An array all of whose entries are real numbers. -/
def AllReal {S : Shape} (f : S.Idx → EReal) : Prop := ∀ i, ∃ v : ℝ, f i = (v : EReal)

end Cert.Spec

end
-- ==== Proof.KernelValue.lean ====
/-
  The idealized kernel's result, entry by entry, on the extended reals.

  Point t's 400 rows are  (adjacency block of t) · (features · weightsᵀ) + bias row.  Block t of the adjacency
  matrix is its rows [400 · t, 400 · t + 400), all columns; the features, the weights and the bias row are read
  whole at every point; the bias row is the bias vector given a leading unit axis, so its entry (0, o) is entry o
  of the vector. With the matrix products read as sums (a change of float format being the identity on the extended
  reals), entry (400 · t + r, o) of the result is

      (∑ j, a (400 · t + r, j) * (∑ q, x (j, q) * w (o, q))) + b o,

  the projected-first arrangement of the specification at row 400 · t + r.
-/
import proofs.«123032_g65816078844241_cont_9to1c4b_298_21_alg».proof.Proof.OutputRows
import proofs.«123032_g65816078844241_cont_9to1c4b_298_21_alg».proof.Proof.PayloadIdeal
import proofs.«123032_g65816078844241_cont_9to1c4b_298_21_alg».proof.Proof.Spec
import Idealize.ShloMosaic.Lib.StableHlo.Run

set_option maxRecDepth 16384

noncomputable section

open scoped BigOperators

namespace Cert.KernelIdeal.Out

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (RDat)

variable (m : (ℓ : Loc nD τ sig) → Buf (Elt Ideal) ℓ) (ρ : Dev nD → PrngReg)

/-! ## Which block of its array each input window holds -/

/-- The adjacency window moves down one block of rows per point and holds every column. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The other three input windows hold their whole arrays at every point. -/
theorem index1 : ∀ (t : Fin cfg0.N) (a : Fin 2), win0_1.index t a = 0 :=
  (by decide +kernel : ∀ (t : Fin grid0.N) (a : Fin 2), win0_1.index t a = 0)
theorem index2 : ∀ (t : Fin cfg0.N) (a : Fin 2), win0_2.index t a = 0 :=
  (by decide +kernel : ∀ (t : Fin grid0.N) (a : Fin 2), win0_2.index t a = 0)
theorem index3 : ∀ (t : Fin cfg0.N) (a : Fin 2), win0_3.index t a = 0 :=
  (by decide +kernel : ∀ (t : Fin grid0.N) (a : Fin 2), win0_3.index t a = 0)

/-! ## The blocks read at an entry -/

/-- Entry (r, j) of the adjacency block of point t is entry (400 · t + r, j) of the adjacency matrix. -/
theorem blk0_apply (c : Dev nD) (t : Fin cfg0.N) (r : Fin 400) (j : Fin 10000) (h : 400 * t.val + r.val < 10000) :
    iblk m c 0 t (ix2 r j) = m ((c.tc : Thread nD τ).loc main_arg1) (ix2 ⟨400 * t.val + r.val, h⟩ j) := by
  unfold iblk
  rw [View.read_apply]
  show V m c main_arg1 (((cfg0.win 0).blk t).view.emb (ix2 r j)) = _
  rw [V_main_arg1]
  refine congrArg (m ((c.tc : Thread nD τ).loc main_arg1)) (funext fun a => Fin.ext ?_)
  match a with
  | ⟨0, _⟩ => show win0_0.index t (0 : Fin 2) * 400 + 1 * r.val = 400 * t.val + r.val; rw [(index0 t).1]; omega
  | ⟨1, _⟩ => show win0_0.index t (1 : Fin 2) * 10000 + 1 * j.val = j.val; rw [(index0 t).2]; omega

/-- The features' block is the feature matrix. -/
theorem blk1_apply (c : Dev nD) (t : Fin cfg0.N) (j : Fin 10000) (q : Fin 128) :
    iblk m c 1 t (ix2 j q) = m ((c.tc : Thread nD τ).loc main_arg0) (ix2 j q) := by
  unfold iblk
  rw [View.read_apply]
  show V m c main_arg0 (((cfg0.win 1).blk t).view.emb (ix2 j q)) = _
  rw [V_main_arg0]
  refine congrArg (m ((c.tc : Thread nD τ).loc main_arg0)) (funext fun a => Fin.ext ?_)
  match a with
  | ⟨0, _⟩ => show win0_1.index t (0 : Fin 2) * 10000 + 1 * j.val = j.val; rw [index1]; omega
  | ⟨1, _⟩ => show win0_1.index t (1 : Fin 2) * 128 + 1 * q.val = q.val; rw [index1]; omega

/-- The weights' block is the weight matrix. -/
theorem blk2_apply (c : Dev nD) (t : Fin cfg0.N) (o : Fin 64) (q : Fin 128) :
    iblk m c 2 t (ix2 o q) = m ((c.tc : Thread nD τ).loc main_arg2) (ix2 o q) := by
  unfold iblk
  rw [View.read_apply]
  show V m c main_arg2 (((cfg0.win 2).blk t).view.emb (ix2 o q)) = _
  rw [V_main_arg2]
  refine congrArg (m ((c.tc : Thread nD τ).loc main_arg2)) (funext fun a => Fin.ext ?_)
  match a with
  | ⟨0, _⟩ => show win0_2.index t (0 : Fin 2) * 64 + 1 * o.val = o.val; rw [index2]; omega
  | ⟨1, _⟩ => show win0_2.index t (1 : Fin 2) * 128 + 1 * q.val = q.val; rw [index2]; omega

/-- The bias row the region finds is the bias vector with a leading unit axis. -/
theorem V_bias (c : Dev nD) :
    (V m c main_v0 : S1x64.Idx → EReal) = shapeCast S1x64 (m ((c.tc : Thread nD τ).loc main_arg3)) Facts₀.shapeCasts_S64_S1x64 := by
  dsimp only [Gen.V, Gen.hostOps0]; after_results; rfl

/-- Entry (0, o) of the bias row's block is entry o of the bias vector. -/
theorem blk3_apply (c : Dev nD) (t : Fin cfg0.N) (o : Fin 64) :
    iblk m c 3 t (ix2 0 o) = m ((c.tc : Thread nD τ).loc main_arg3) (ix1 o) := by
  unfold iblk
  rw [View.read_apply]
  show V m c main_v0 (((cfg0.win 3).blk t).view.emb (ix2 0 o)) = _
  have e : ((cfg0.win 3).blk t).view.emb (ix2 (0 : Fin 1) o) = (ix2 (0 : Fin 1) o : S1x64.Idx) := by
    funext a; apply Fin.ext
    match a with
    | ⟨0, _⟩ => show win0_3.index t (0 : Fin 2) * 1 + 1 * 0 = 0; rw [index3]
    | ⟨1, _⟩ => show win0_3.index t (1 : Fin 2) * 64 + 1 * o.val = o.val; rw [index3]; omega
  rw [e, V_bias]
  exact shapeCast_apply _ _ (ix2 (0 : Fin 1) o) (ix1 o) (by rw [Shape.rowMajor_val_one, Shape.rowMajor_val_two]; simp)

/-! ## The rows of a point, and the whole result -/

/-- Entry (j, o) of the projection the scratch holds. -/
theorem xw_apply (c : Dev nD) (j : Fin 10000) (o : Fin 64) :
    xw m c (ix2 j o) = Cert.Spec.proj (m ((c.tc : Thread nD τ).loc main_arg0)) (m ((c.tc : Thread nD τ).loc main_arg2)) j o := by
  unfold xw Cert.Spec.proj
  refine (Payload.pay1_apply (iblk m c 1 t₀) (iblk m c 2 t₀) j o).trans ?_
  refine Finset.sum_congr rfl fun q _ => ?_
  rw [blk1_apply m c t₀ j q, blk2_apply m c t₀ o q]

/-- Entry (r, o) of the rows of point t is the projected-first arrangement at row 400 · t + r. -/
theorem rowsAt_apply (c : Dev nD) (t : Fin cfg0.N) (r : Fin 400) (o : Fin 64) (h : 400 * t.val + r.val < 10000) :
    rowsAt m c t (ix2 r o) = Cert.Spec.projFirst (m ((c.tc : Thread nD τ).loc main_arg0)) (m ((c.tc : Thread nD τ).loc main_arg1))
      (m ((c.tc : Thread nD τ).loc main_arg2)) (m ((c.tc : Thread nD τ).loc main_arg3)) ⟨400 * t.val + r.val, h⟩ o := by
  unfold rowsAt Cert.Spec.projFirst
  refine (Payload.pay2_apply (iblk m c 0 t) (xw m c) (iblk m c 3 t) r o).trans ?_
  rw [blk3_apply m c t o]
  refine congrArg (· + m ((c.tc : Thread nD τ).loc main_arg3) (ix1 o)) (Finset.sum_congr rfl fun j _ => ?_)
  rw [blk0_apply m c t r j h, xw_apply m c j o]

/-- THE RESULT ARRAY: any contents the output array may hold after the run is the projected-first arrangement of
    the four argument arrays, entry by entry. -/
theorem final (c : Dev nD) (G : Buf (Elt Ideal) ((cfg0.win 4).arr.view.loc (c.tc : Thread nD τ)))
    (h : (rdat m c).ArrAt 4 cfg0.N G) :
    G = fun i : S10000x64.Idx => Cert.Spec.projFirst (m ((c.tc : Thread nD τ).loc main_arg0)) (m ((c.tc : Thread nD τ).loc main_arg1))
      (m ((c.tc : Thread nD τ).loc main_arg2)) (m ((c.tc : Thread nD τ).loc main_arg3)) (i 0) (i 1) := by
  funext i
  have hi0 : (i 0).val < 10000 := idx2_lt0 i
  have hi1 : (i 1).val < 64 := idx2_lt1 i
  have hs : (i 0).val / 400 < cfg0.N := lt_of_lt_of_eq (by omega : (i 0).val / 400 < 25) N_0.symm
  have hlt : 400 * ((i 0).val / 400) + (i 0).val % 400 < 10000 := by omega
  have hrow := final_rows m c G h ((i 0).val / 400) hs i (ix2 ⟨(i 0).val % 400, Nat.mod_lt _ (by decide)⟩ ⟨(i 1).val, hi1⟩)
    (by show (i 0).val = 400 * ((i 0).val / 400) + (i 0).val % 400; omega) rfl
  rw [hrow, rowsAt_apply m c ⟨(i 0).val / 400, hs⟩ ⟨(i 0).val % 400, Nat.mod_lt _ (by decide)⟩ ⟨(i 1).val, hi1⟩ hlt]
  congr 1
  exact Fin.ext (by show 400 * ((i 0).val / 400) + (i 0).val % 400 = (i 0).val; omega)

/-! ## The run, with the result named -/

/-- Every weakly fair execution of the idealized kernel terminates without a fault, its result the projected-first
    arrangement of the arguments and its arguments as launched. -/
theorem run : θ_run defs (onTc (τ := τ) (main (F := Ideal))) ⟨m, fun _ => 0, ρ⟩ (fun r => ∀ c : Dev nD,
      r.2.mem ((c.tc : Thread nD τ).loc main_v1) = (fun i : S10000x64.Idx => Cert.Spec.projFirst (m ((c.tc : Thread nD τ).loc main_arg0))
        (m ((c.tc : Thread nD τ).loc main_arg1)) (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨final m c _ ((h c).1 4),
     (show r.2.mem _ = (rdat m c).A 1 from by have := (h c).1 1; rwa [(rdat m c).ArrAt_in 1 rfl] at this).trans (V_main_arg0 m c),
     (show r.2.mem _ = (rdat m c).A 0 from by have := (h c).1 0; rwa [(rdat m c).ArrAt_in 0 rfl] at this).trans (V_main_arg1 m c),
     (show r.2.mem _ = (rdat m c).A 2 from by have := (h c).1 2; rwa [(rdat m c).ArrAt_in 2 rfl] at this).trans (V_main_arg2 m c),
     ((h c).2 main_arg3 (Pipeline.mem_restRefs_of main_arg3 (by decide) (by decide))).trans (V_main_arg3 m c)⟩) (run_main m ρ)

end Cert.KernelIdeal.Out

end
-- ==== Proof.RefValue.lean ====
/-
  The reference's result, read entry by entry, is the aggregated-first arrangement  (a · x) · wᵀ + b.

  The reference computes, in order: the aggregation  a · x  (a contraction over the 10000 source rows), the transposed
  weights  wᵀ, the product  (a · x) · wᵀ  (a contraction over the 128 features), the bias repeated along every row,
  and their entrywise sum. Entry (r, o) of the last stage is therefore
      (∑ q, (∑ j, a (r, j) * x (j, q)) * w (o, q)) + b o,
  once each composed index function is recognised as the index built from the coordinates it names:
  the transpose swaps the two coordinates, and the two broadcasts keep only the column coordinate.
-/
import proofs.«123032_g65816078844241_cont_9to1c4b_298_21_alg».proof.Proof.Gen.ReferenceIdeal.Read
import proofs.«123032_g65816078844241_cont_9to1c4b_298_21_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- Row r of the adjacency against source row j: the aggregation's left operand at entry (r, q), term j. -/
theorem lidx_agg (r : Fin 10000) (o : Fin 64) (q : Fin 128) (j : Fin 10000) :
    Read.lidx_main_v0 (Read.lidx_main_v2 (ix2 r o) q) j = ix2 r j :=
  funext fun a => Fin.ext (by match a with | ⟨0, _⟩ => rfl | ⟨1, _⟩ => rfl)

/-- Source row j at feature q: the aggregation's right operand at entry (r, q), term j. -/
theorem ridx_agg (r : Fin 10000) (o : Fin 64) (q : Fin 128) (j : Fin 10000) :
    Read.ridx_main_v0 (Read.lidx_main_v2 (ix2 r o) q) j = ix2 j q :=
  funext fun a => Fin.ext (by match a with | ⟨0, _⟩ => rfl | ⟨1, _⟩ => rfl)

/-- Entry (q, o) of the transposed weights is entry (o, q) of the weights. -/
theorem idx_wT (r : Fin 10000) (o : Fin 64) (q : Fin 128) :
    Read.idx_main_v1 (Read.ridx_main_v2 (ix2 r o) q) = ix2 o q :=
  funext fun a => Fin.ext (by match a with | ⟨0, _⟩ => rfl | ⟨1, _⟩ => rfl)

/-- Entry (r, o) of the repeated bias is entry o of the bias. -/
theorem idx_bias (r : Fin 10000) (o : Fin 64) :
    Read.idx_main_v3 (Read.idx_main_v4 (ix2 r o)) = ix1 o :=
  funext fun a => Fin.ext (by match a with | ⟨0, _⟩ => rfl)

/-- The reference's last stage, as a function of the four argument arrays (features, adjacency, weights, bias),
    is the aggregated-first arrangement, entry by entry. -/
theorem ref_eq_aggFirst
    (x0 : (⟨S10000x128, .f32⟩ : BufTy).Contents (Elt Ideal))
    (x1 : (⟨S10000x10000, .f32⟩ : BufTy).Contents (Elt Ideal))
    (x2 : (⟨S64x128, .f32⟩ : BufTy).Contents (Elt Ideal))
    (x3 : (⟨S64, .f32⟩ : BufTy).Contents (Elt Ideal)) :
    Read.val_main_v5 (F := Ideal) x0 x1 x2 x3 = fun i => Cert.Spec.aggFirst x0 x1 x2 x3 (i 0) (i 1) := by
  funext i
  obtain ⟨r, o, rfl⟩ : ∃ (r : Fin 10000) (o : Fin 64), i = ix2 r o := ⟨i 0, i 1, eq_ix2 i⟩
  rw [Read.val_main_v5_apply, Read.val_main_v2_apply, Read.val_main_v4_apply, Read.val_main_v3_apply]
  simp only [Read.val_main_v0_apply, Read.val_main_v1_apply, lidx_agg, ridx_agg, idx_wT, idx_bias,
    Cert.Spec.aggFirst, Cert.Spec.agg, Ideal.addf_def]

/-- The same statement about the composed term of the six operations itself: the two contractions, the transpose,
    the two broadcasts and the sum, applied to the four argument arrays, are the aggregated-first arrangement. -/
theorem composed_eq_aggFirst
    (x0 : (⟨S10000x128, .f32⟩ : BufTy).Contents (Elt Ideal))
    (x1 : (⟨S10000x10000, .f32⟩ : BufTy).Contents (Elt Ideal))
    (x2 : (⟨S64x128, .f32⟩ : BufTy).Contents (Elt Ideal))
    (x3 : (⟨S64, .f32⟩ : BufTy).Contents (Elt Ideal)) :
    (addf (Host.dotGeneral (F := Ideal) (φ₁ := .f32) (φ₂ := .f32) dot_S10000x128_S128x64_S10000x64_1_0_0_1_n_n none
        (Host.dotGeneral (F := Ideal) (φ₁ := .f32) (φ₂ := .f32) dot_S10000x10000_S10000x128_S10000x128_1_0_0_1_n_n none x1 x0)
        (transpose S128x64 [1, 0] x2 transposes_S64x128_S128x64_1_0))
      (broadcastInDim S10000x64 ![0, 1] bcast_S1x64_S10000x64_0_1 (broadcastInDim S1x64 ![1] bcast_S64_S1x64_1 x3))
        : (⟨S10000x64, .f32⟩ : BufTy).Contents (Elt Ideal))
      = fun i => Cert.Spec.aggFirst x0 x1 x2 x3 (i 0) (i 1) :=
  (Read.val_main_v5_eq (F := Ideal) x0 x1 x2 x3).trans (ref_eq_aggFirst x0 x1 x2 x3)

end Cert.ReferenceIdeal.RefValue

end
-- ==== Proof.MatAssoc.lean ====
/-
  Associativity of the matrix product for real matrices read as extended reals:
  for finite families a (n × k), x (k × f), w (c × f),
    ∑ j, a i j * (∑ q, x j q * w o q)  =  ∑ q, (∑ j, a i j * x j q) * w o q.
  Both sides are finite sums of products of reals, so the identity is the real one carried through the coercion.
-/
import Mathlib

noncomputable section

open scoped BigOperators

namespace MatAssoc

/-- The coercion ℝ → EReal commutes with finite sums: it sends 0 to 0 and is additive. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih =>
    rw [Finset.sum_insert hi, Finset.sum_insert hi, EReal.coe_add, ih]

/-- For real families the two bracketings of the triple product agree: after choosing the real values,
    both sides are the coercion of a real double sum, and in ℝ the identity is distributivity,
    exchange of the two finite sums, and associativity of the product. -/
theorem sum_mul_sum_eq {J Q : Type*} [Fintype J] [Fintype Q]
    (a : J → EReal) (x : J → Q → EReal) (w : Q → EReal)
    (ha : ∀ j, ∃ v : ℝ, a j = (v : EReal))
    (hx : ∀ j q, ∃ v : ℝ, x j q = (v : EReal))
    (hw : ∀ q, ∃ v : ℝ, w q = (v : EReal)) :
    ∑ j, a j * (∑ q, x j q * w q) = ∑ q, (∑ j, a j * x j q) * w q := by
  choose a' ha' using ha
  choose x' hx' using hx
  choose w' hw' using hw
  have hL : ∑ j, a j * (∑ q, x j q * w q) = ((∑ j, a' j * (∑ q, x' j q * w' q) : ℝ) : EReal) := by
    rw [coe_sum]
    refine Finset.sum_congr rfl fun j _ => ?_
    rw [EReal.coe_mul, coe_sum, ha' j]
    congr 1
    refine Finset.sum_congr rfl fun q _ => ?_
    rw [EReal.coe_mul, hx' j q, hw' q]
  have hR : ∑ q, (∑ j, a j * x j q) * w q = ((∑ q, (∑ j, a' j * x' j q) * w' q : ℝ) : EReal) := by
    rw [coe_sum]
    refine Finset.sum_congr rfl fun q _ => ?_
    rw [EReal.coe_mul, coe_sum, hw' q]
    congr 1
    refine Finset.sum_congr rfl fun j _ => ?_
    rw [EReal.coe_mul, ha' j, hx' j q]
  rw [hL, hR]
  congr 1
  simp only [Finset.mul_sum, Finset.sum_mul]
  rw [Finset.sum_comm]
  refine Finset.sum_congr rfl fun q _ => Finset.sum_congr rfl fun j _ => ?_
  rw [mul_assoc]

end MatAssoc

end
-- ==== Proof.SpecLaw.lean ====
/-
  The two arrangements of the linear layer agree on real inputs.

  With  A j := a (r, j),  X j q := x (j, q),  W q := w (o, q)  the projected-first entry is
  (∑ j, A j * (∑ q, X j q * W q)) + b o  and the aggregated-first entry is  (∑ q, (∑ j, A j * X j q) * W q) + b o.
  The two double sums are equal by associativity of the real matrix product; the bias is the same summand on
  both sides and is added after, so nothing is asked of it.
-/
import proofs.«123032_g65816078844241_cont_9to1c4b_298_21_alg».proof.Proof.Spec
import proofs.«123032_g65816078844241_cont_9to1c4b_298_21_alg».proof.Proof.MatAssoc

noncomputable section

open scoped BigOperators

namespace Cert.Spec

open Idealize.ShloMosaic Idealize.ShloMosaic.ValueIdx

/-- The double sums of the two arrangements agree when x, a and w have real entries. -/
theorem sum_proj_eq_sum_agg (x : SX.Idx → EReal) (a : SA.Idx → EReal) (w : SW.Idx → EReal)
    (hx : AllReal x) (ha : AllReal a) (hw : AllReal w) (r : Fin 10000) (o : Fin 64) :
    ∑ j : Fin 10000, a (ix2 r j) * proj x w j o = ∑ q : Fin 128, agg x a r q * w (ix2 o q) :=
  MatAssoc.sum_mul_sum_eq (fun j : Fin 10000 => a (ix2 r j)) (fun (j : Fin 10000) (q : Fin 128) => x (ix2 j q))
    (fun q : Fin 128 => w (ix2 o q)) (fun j => ha (ix2 r j)) (fun j q => hx (ix2 j q)) (fun q => hw (ix2 o q))

/-- a · (x · wᵀ) + b = (a · x) · wᵀ + b entrywise, for real x, a, w and any bias b. -/
theorem projFirst_eq_aggFirst (x : SX.Idx → EReal) (a : SA.Idx → EReal) (w : SW.Idx → EReal)
    (b : SB.Idx → EReal) (hx : AllReal x) (ha : AllReal a) (hw : AllReal w)
    (r : Fin 10000) (o : Fin 64) : projFirst x a w b r o = aggFirst x a w b r o :=
  congrArg (· + b (ix1 o)) (sum_proj_eq_sum_agg x a w hx ha hw r o)

end Cert.Spec

end
-- ==== Proof.Finite.lean ====
/-
  From the precondition to real entries.

  The precondition is the conjunction of four tests, one per argument array: every entry v satisfies
  max v (-v) < +∞ on the extended reals. The maximum of v and -v is +∞ exactly at the two infinities, so the
  test says v is a real number. The conjunction is 1 only when each conjunct is, and a conjunction over all
  entries of an array is 1 only when the test is 1 at each entry.
-/
import proofs.«123032_g65816078844241_cont_9to1c4b_298_21_alg».proof.Defs
import proofs.«123032_g65816078844241_cont_9to1c4b_298_21_alg».proof.Proof.Spec
import Idealize.ShloMosaic.Lib.ReduceAll
import Idealize.ShloMosaic.PureOps.Ideal.Laws

noncomputable section

namespace Cert.Finite

open Idealize.ShloMosaic Idealize.SL.Sem

/-- The rank-0 shape has one index. -/
instance : Subsingleton Cert.Pre_finite_inputs.S_.Idx := ⟨fun a b => funext fun d => d.elim0⟩

/-- The pattern 0x7F800000 (sign 0, exponent all ones, significand 0) denotes +∞. -/
theorem ofBits_inf : Ideal.ofBits .f32 0x7F800000#32 = (⊤ : EReal) := by
  simp [Ideal.ofBits, Ideal.ieee]

/-- max v (-v) < +∞ leaves only the real numbers: at -∞ the negation is +∞, at +∞ the value itself is. -/
theorem real_of_abs_lt_top (v : EReal) (h : max v (-v) < ⊤) : ∃ r : ℝ, v = (r : EReal) := by
  induction v using EReal.rec with
  | bot => simp at h
  | coe r => exact ⟨r, rfl⟩
  | top => simp at h

/-- One entry's test, read back: the comparison |v| < +∞ came out 1, so v is real. -/
theorem real_of_test (v : Ideal .f32)
    (h : FloatOps.cmpf (F := Ideal) .olt (FloatOps.hostAbsf v) (FloatOps.ofBits .f32 0x7F800000#32) = 1#1) :
    ∃ r : ℝ, v = (r : EReal) := by
  have hb : (FloatOps.ofBits (F := Ideal) .f32 0x7F800000#32) = (⊤ : EReal) := ofBits_inf
  rw [hb] at h
  refine real_of_abs_lt_top v ?_
  by_contra hn
  have : FloatOps.cmpf (F := Ideal) (φ := .f32) .olt (FloatOps.hostAbsf v) (⊤ : EReal) = 0#1 := by
    show Ideal.cmp .olt (max v (-v)) ⊤ = 0#1
    simp [Ideal.cmp, hn]
  rw [this] at h
  exact absurd h (by decide)

/-- The precondition gives real entries in the first three argument arrays (features, adjacency, weights),
    on every device. (The fourth conjunct, the bias's, is not needed by the algebraic law and is dropped.) -/
theorem allReal_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.AllReal (S := Cert.Spec.SX)
        (m ((c.tc : Thread Cert.KernelIdeal.nD Cert.KernelIdeal.τ).loc Cert.KernelIdeal.main_arg0))
      ∧ Cert.Spec.AllReal (S := Cert.Spec.SA)
        (m ((c.tc : Thread Cert.KernelIdeal.nD Cert.KernelIdeal.τ).loc Cert.KernelIdeal.main_arg1))
      ∧ Cert.Spec.AllReal (S := Cert.Spec.SW)
        (m ((c.tc : Thread Cert.KernelIdeal.nD Cert.KernelIdeal.τ).loc Cert.KernelIdeal.main_arg2)) := by
  have e := congrFun (h c) ValueIdx.ix0
  dsimp only [Cert.Pre_finite_inputs.fn, Cert.Pre_finite_inputs.fn_part1] at e
  simp only [Idealize.ShloMosaic.andi, IntOp.andi_eq_one] at e
  obtain ⟨⟨⟨h0, h1⟩, h2⟩, -⟩ := e
  refine ⟨fun i => ?_, fun i => ?_, fun i => ?_⟩
  · exact real_of_test _ (Host.reduce_andi_all _ _ _ _ _ h0 i)
  · exact real_of_test _ (Host.reduce_andi_all _ _ _ _ _ h1 i)
  · exact real_of_test _ (Host.reduce_andi_all _ _ _ _ _ h2 i)

end Cert.Finite

end
-- ==== Proof.lean ====
/-
  A linear layer over aggregated features, computed two ways:

    kernel    :  out = a · (x · wᵀ) + b      (the projection x · wᵀ computed once, then 25 row blocks of a times it)
    reference :  out = (a · x) · wᵀ + b

  for x : 10000 × 128, a : 10000 × 10000, w : 64 × 128, b : 64. On the extended reals, with every float operation
  exact and a change of float format the identity, both results are finite double sums of products once every
  entry of x, a and w is a real number, which the precondition (every input finite) gives; the two double sums are
  then equal by associativity of the matrix product. The bias is added last on both sides and need not be finite.

  The three frame claims: the kernel (as printed, and idealized) runs its 25 grid points to the end without a
  fault and leaves its four argument arrays as launched; the reference is straight-line host code. The kernel's
  idealization rewrote no operation, so there is nothing to preserve.
-/
import proofs.«123032_g65816078844241_cont_9to1c4b_298_21_alg».proof.Defs
import proofs.«123032_g65816078844241_cont_9to1c4b_298_21_alg».proof.Proof.Gen.Kernel
import proofs.«123032_g65816078844241_cont_9to1c4b_298_21_alg».proof.Proof.Gen.KernelIdeal
import proofs.«123032_g65816078844241_cont_9to1c4b_298_21_alg».proof.Proof.Gen.ReferenceIdeal
import proofs.«123032_g65816078844241_cont_9to1c4b_298_21_alg».proof.Proof.Gen.ReferenceIdeal.Run
import proofs.«123032_g65816078844241_cont_9to1c4b_298_21_alg».proof.Proof.Gen.ReferenceIdeal.Read
import proofs.«123032_g65816078844241_cont_9to1c4b_298_21_alg».proof.Proof.Gen.Pre_finite_inputs
import proofs.«123032_g65816078844241_cont_9to1c4b_298_21_alg».proof.Proof.BodyBits
import proofs.«123032_g65816078844241_cont_9to1c4b_298_21_alg».proof.Proof.KernelValue
import proofs.«123032_g65816078844241_cont_9to1c4b_298_21_alg».proof.Proof.RefValue
import proofs.«123032_g65816078844241_cont_9to1c4b_298_21_alg».proof.Proof.SpecLaw
import proofs.«123032_g65816078844241_cont_9to1c4b_298_21_alg».proof.Proof.Finite
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference is straight-line host code: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the kernel ends at `a · (x · wᵀ) + b` and the reference at
    `(a · x) · wᵀ + b`; with x, a, w real these are one array. -/
theorem algebraic : Cert.algebraic_KernelIdeal_ReferenceIdeal := by
  intro m ρ m' ρ' hpre hagree
  refine ⟨_, Cert.KernelIdeal.Out.run m ρ, ?_⟩
  refine (θ_run Cert.ReferenceIdeal.defs _ _).mono (fun _ h c => ⟨?_, (h c).2⟩)
    (Cert.ReferenceIdeal.Value.run (F := Ideal) m' ρ')
  obtain ⟨hx, ha, hw⟩ := Cert.Finite.allReal_of_pre m hpre c
  refine ((h c).1.trans (Cert.ReferenceIdeal.RefValue.composed_eq_aggFirst _ _ _ _)).trans ?_
  rw [(hagree c).1, (hagree c).2.1, (hagree c).2.2.1, (hagree c).2.2.2]
  funext i
  exact (Cert.Spec.projFirst_eq_aggFirst _ _ _ _ hx ha hw (i 0) (i 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
